-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v44_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1x64 .f32) (main_arg9 : FVec F S1 .f32) (main_v33 : IVec S_ 1) : IVec S_ 1 :=
  let main_v34 : FVec F S1x64 .f32 := Host.absf main_arg8
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64 .f32) (main_arg8 : FVec F S1x64 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1280000 32) (main_arg2 : FVec F S64x64 .f32) (main_arg3 : FVec F S64x64 .f32) (main_arg4 : FVec F S64 .f32) (main_arg5 : FVec F S64x64 .f32) (main_arg6 : FVec F S64x64 .f32) (main_arg7 : FVec F S64 .f32) (main_arg8 : FVec F S1x64 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S100000 : Shape := ⟨1, ![100000]⟩
abbrev S1280000x1 : Shape := ⟨2, ![1280000, 1]⟩
abbrev S100000x1 : Shape := ⟨2, ![100000, 1]⟩
abbrev S1280000x64 : Shape := ⟨2, ![1280000, 64]⟩
abbrev S5000x64 : Shape := ⟨2, ![5000, 64]⟩
abbrev S64x1 : Shape := ⟨2, ![64, 1]⟩
abbrev S1x1 : Shape := ⟨2, ![1, 1]⟩
abbrev S5000x1 : Shape := ⟨2, ![5000, 1]⟩

abbrev nBuf : Space → Nat
  | .hbm => 66
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1280000, .i32⟩
  | .hbm, ⟨11, _⟩ => ⟨S1280000, .i32⟩
  | .hbm, ⟨12, _⟩ => ⟨S1x1280000, .i32⟩
  | .hbm, ⟨13, _⟩ => ⟨S1280000, .i32⟩
  | .hbm, ⟨14, _⟩ => ⟨S_, .f32⟩
  | .hbm, ⟨15, _⟩ => ⟨S1280000, .f32⟩
  | .hbm, ⟨16, _⟩ => ⟨S_, .f32⟩
  | .hbm, ⟨17, _⟩ => ⟨S100000, .f32⟩
  | .hbm, ⟨18, _⟩ => ⟨S1280000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1280000, .i32⟩
  | .hbm, ⟨26, _⟩ => ⟨S1280000, .i1⟩
  | .hbm, ⟨27, _⟩ => ⟨S_, .i32⟩
  | .hbm, ⟨28, _⟩ => ⟨S1280000, .i32⟩
  | .hbm, ⟨29, _⟩ => ⟨S1280000, .i32⟩
  | .hbm, ⟨30, _⟩ => ⟨S1280000, .i32⟩
  | .hbm, ⟨31, _⟩ => ⟨S1280000x1, .i32⟩
  | .hbm, ⟨32, _⟩ => ⟨S1280000x64, .f32⟩
  | .hbm, ⟨33, _⟩ => ⟨S_, .f32⟩
  | .hbm, ⟨34, _⟩ => ⟨S100000x64, .f32⟩
  | .hbm, ⟨35, _⟩ => ⟨S1280000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S64x64, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1280000, .i32⟩
  | .hbm, ⟨45, _⟩ => ⟨S1280000, .i1⟩
  | .hbm, ⟨46, _⟩ => ⟨S_, .i32⟩
  | .hbm, ⟨47, _⟩ => ⟨S1280000, .i32⟩
  | .hbm, ⟨48, _⟩ => ⟨S1280000, .i32⟩
  | .hbm, ⟨49, _⟩ => ⟨S1280000, .i32⟩
  | .hbm, ⟨50, _⟩ => ⟨S1280000x1, .i32⟩
  | .hbm, ⟨51, _⟩ => ⟨S1280000x64, .f32⟩
  | .hbm, ⟨52, _⟩ => ⟨S_, .f32⟩
  | .hbm, ⟨53, _⟩ => ⟨S100000x64, .f32⟩
  | .hbm, ⟨54, _⟩ => ⟨S1280000x1, .i32⟩
  | .hbm, ⟨55, _⟩ => ⟨S100000x64, .f32⟩
  | .hbm, ⟨56, _⟩ => ⟨S100000x64, .f32⟩
  | .hbm, ⟨57, _⟩ => ⟨S100000x64, .f32⟩
  | .hbm, ⟨58, _⟩ => ⟨S64x64, .f32⟩
  | .hbm, ⟨59, _⟩ => ⟨S64x64, .f32⟩
  | .hbm, ⟨60, _⟩ => ⟨S1x64, .f32⟩
  | .hbm, ⟨61, _⟩ => ⟨S64x1, .f32⟩
  | .hbm, ⟨62, _⟩ => ⟨S1x1, .f32⟩
  | .hbm, ⟨63, _⟩ => ⟨S100000x64, .f32⟩
  | .hbm, ⟨64, _⟩ => ⟨S100000x1, .f32⟩
  | .hbm, ⟨65, _⟩ => ⟨S100000, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S64x1, .f32⟩
  | .local _ .vmem, ⟨17, _⟩ => ⟨S1x1, .f32⟩
  | .local _ .vmem, ⟨18, _⟩ => ⟨S5000x64, .f32⟩
  | .local _ .vmem, ⟨19, _⟩ => ⟨S5000x64, .f32⟩
  | .local _ .vmem, ⟨20, _⟩ => ⟨S5000x1, .f32⟩
  | .local _ .vmem, ⟨21, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44_0 : Ref sig .tc := ⟨.hbm, 63, rfl⟩
abbrev main_v44_1 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  transposes_S1x64_S64x1_1_0 : S1x64.Transposes [1, 0] S64x1
  shapeCasts_S1_S1x1 : S1.ShapeCasts S1x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S100000x1_S100000 : S100000x1.ShapeCasts S100000
  scatter_S100000_S1280000x1_S1280000_n_0_0_1_wf : ScatterDims.WF S100000 S1280000x1 S1280000 [] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x1.size a ≤ S64x1.size a
  hwx1_5 : ∀ i : grid1.Coords, EltTy.bits .f32 = 32 ∨ (Rect.block (s := S64x1) S64x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .f32 = 32 ∨ (Rect.block (s := S100000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x1.size a ≤ S100000x1.size a
  hwx1_8 : ∀ i : grid1.Coords, EltTy.bits .f32 = 32 ∨ (Rect.block (s := S100000x1) S5000x1.size (cc1_transform_8 i) (hinb1_8 i)).WholeWords (EltTy.packing .f32)

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S64x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44_0) S5000x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v44_1) S5000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1280000 : Shape := ⟨2, ![2, 1280000]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x1280000 : Shape := ⟨2, ![1, 1280000]⟩
abbrev S1280000 : Shape := ⟨1, ![1280000]⟩
abbrev S_ : Shape := ⟨0, ![]⟩
abbrev S100000 : Shape := ⟨1, ![100000]⟩
abbrev S1280000x1 : Shape := ⟨2, ![1280000, 1]⟩
abbrev S100000x1 : Shape := ⟨2, ![100000, 1]⟩
abbrev S1280000x64 : Shape := ⟨2, ![1280000, 64]⟩
abbrev S64x1 : Shape := ⟨2, ![64, 1]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1280000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1x1280000, .i32⟩
  | .hbm, ⟨11, _⟩ => ⟨S1280000, .i32⟩
  | .hbm, ⟨12, _⟩ => ⟨S1x1280000, .i32⟩
  | .hbm, ⟨13, _⟩ => ⟨S1280000, .i32⟩
  | .hbm, ⟨14, _⟩ => ⟨S_, .f32⟩
  | .hbm, ⟨15, _⟩ => ⟨S1280000, .f32⟩
  | .hbm, ⟨16, _⟩ => ⟨S_, .f32⟩
  | .hbm, ⟨17, _⟩ => ⟨S100000, .f32⟩
  | .hbm, ⟨18, _⟩ => ⟨S1280000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .i32⟩
  | .hbm, ⟨25, _⟩ => ⟨S1280000, .i32⟩
  | .hbm, ⟨26, _⟩ => ⟨S1280000, .i1⟩
  | .hbm, ⟨27, _⟩ => ⟨S_, .i32⟩
  | .hbm, ⟨28, _⟩ => ⟨S1280000, .i32⟩
  | .hbm, ⟨29, _⟩ => ⟨S1280000, .i32⟩
  | .hbm, ⟨30, _⟩ => ⟨S1280000, .i32⟩
  | .hbm, ⟨31, _⟩ => ⟨S1280000x1, .i32⟩
  | .hbm, ⟨32, _⟩ => ⟨S1280000x64, .f32⟩
  | .hbm, ⟨33, _⟩ => ⟨S_, .f32⟩
  | .hbm, ⟨34, _⟩ => ⟨S100000x64, .f32⟩
  | .hbm, ⟨35, _⟩ => ⟨S1280000x1, .i32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S64x64, .f32⟩
  | .hbm, ⟨40, _⟩ => ⟨S100000x64, .f32⟩
  | .hbm, ⟨41, _⟩ => ⟨S1x64, .f32⟩
  | .hbm, ⟨42, _⟩ => ⟨S100000x64, .f32⟩
  | .hbm, ⟨43, _⟩ => ⟨S100000x64, .f32⟩
  | .hbm, ⟨44, _⟩ => ⟨S64x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S_, .i32⟩
  | .hbm, ⟨51, _⟩ => ⟨S1280000, .i32⟩
  | .hbm, ⟨52, _⟩ => ⟨S1280000, .i1⟩
  | .hbm, ⟨53, _⟩ => ⟨S_, .i32⟩
  | .hbm, ⟨54, _⟩ => ⟨S1280000, .i32⟩
  | .hbm, ⟨55, _⟩ => ⟨S1280000, .i32⟩
  | .hbm, ⟨56, _⟩ => ⟨S1280000, .i32⟩
  | .hbm, ⟨57, _⟩ => ⟨S1280000x1, .i32⟩
  | .hbm, ⟨58, _⟩ => ⟨S1280000x64, .f32⟩
  | .hbm, ⟨59, _⟩ => ⟨S_, .f32⟩
  | .hbm, ⟨60, _⟩ => ⟨S100000x64, .f32⟩
  | .hbm, ⟨61, _⟩ => ⟨S1280000x1, .i32⟩
  | .hbm, ⟨62, _⟩ => ⟨S100000x64, .f32⟩
  | .hbm, ⟨63, _⟩ => ⟨S100000x64, .f32⟩
  | .hbm, ⟨64, _⟩ => ⟨S100000x64, .f32⟩
  | .hbm, ⟨65, _⟩ => ⟨S64x64, .f32⟩
  | .hbm, ⟨66, _⟩ => ⟨S100000x64, .f32⟩
  | .hbm, ⟨67, _⟩ => ⟨S1x64, .f32⟩
  | .hbm, ⟨68, _⟩ => ⟨S100000x64, .f32⟩
  | .hbm, ⟨69, _⟩ => ⟨S100000x64, .f32⟩
  | .hbm, ⟨70, _⟩ => ⟨S64x64, .f32⟩
  | .hbm, ⟨71, _⟩ => ⟨S100000x64, .f32⟩
  | .hbm, ⟨72, _⟩ => ⟨S100000x64, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S64x1, .f32⟩
  | .hbm, ⟨77, _⟩ => ⟨S100000x1, .f32⟩
  | .hbm, ⟨78, _⟩ => ⟨S1x1, .f32⟩
  | .hbm, ⟨79, _⟩ => ⟨S100000x1, .f32⟩
  | .hbm, ⟨80, _⟩ => ⟨S100000x1, .f32⟩
  | .hbm, ⟨81, _⟩ => ⟨S100000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]

class Facts₀ : Prop where
  slices_S2x1280000_S1x1280000_0_0 : S2x1280000.Slices ![0, 0] S1x1280000
  shapeCasts_S1x1280000_S1280000 : S1x1280000.ShapeCasts S1280000
  slices_S2x1280000_S1x1280000_1_0 : S2x1280000.Slices ![1, 0] S1x1280000
  bcast_S_S1280000 : S_.BroadcastsInDim S1280000 (![] : Fin 0 → Fin S1280000.rank)
  bcast_S_S100000 : S_.BroadcastsInDim S100000 (![] : Fin 0 → Fin S100000.rank)
  bcast_S1280000_S1280000x1_0 : S1280000.BroadcastsInDim S1280000x1 (![0] : Fin 1 → Fin S1280000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1x64_S64x1_1_0 : S1x64.Transposes [1, 0] S64x1
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S1280000x1_S1280000_n_0_0_1_wf : ScatterDims.WF S100000 S1280000x1 S1280000 [] [0] [0] 1
  gather_S100000x64_S1280000x1_S1280000x64_1_0_n_n_0_1_164_wf : GatherDims.WF S100000x64 S1280000x1 S1280000x64 [1] [0] [] [0] [] 1 ![1, 64]
  scatter_S100000x64_S1280000x1_S1280000x64_1_0_0_1_wf : ScatterDims.WF S100000x64 S1280000x1 S1280000x64 [1] [0] [0] 1
  dot_S100000x64_S64x64_S100000x64_1_0_0_1_n_n_wf : DotDims.WF S100000x64 S64x64 S100000x64 [1] [0] [0] [1] [] []
  dot_S100000x64_S64x1_S100000x1_1_0_0_1_n_n_wf : DotDims.WF S100000x64 S64x1 S100000x1 [1] [0] [0] [1] [] []

variable [Facts₀]

def scatter_S100000_S1280000x1_S1280000_n_0_0_1 : ScatterDims S100000 S1280000x1 S1280000 where
  updateWindowDims := []
  insertedWindowDims := [0]
  scatterDimsToOperandDims := [0]
  indexVectorDim := 1
  wf := scatter_S100000_S1280000x1_S1280000_n_0_0_1_wf
def gather_S100000x64_S1280000x1_S1280000x64_1_0_n_n_0_1_164 : GatherDims S100000x64 S1280000x1 S1280000x64 where
  offsetDims := [1]
  collapsedSliceDims := [0]
  operandBatchingDims := []
  startIndicesBatchingDims := []
  startIndexMap := [0]
  indexVectorDim := 1
  sliceSizes := ![1, 64]
  wf := gather_S100000x64_S1280000x1_S1280000x64_1_0_n_n_0_1_164_wf
def scatter_S100000x64_S1280000x1_S1280000x64_1_0_0_1 : ScatterDims S100000x64 S1280000x1 S1280000x64 where
  updateWindowDims := [1]
  insertedWindowDims := [0]
  scatterDimsToOperandDims := [0]
  indexVectorDim := 1
  wf := scatter_S100000x64_S1280000x1_S1280000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its two results named.

  The program is five stretches: host operations, the first pipelined region (the first layer), host operations, the
  second region (the second layer and the head), one closing host operation. The buffer contents at the end of the
  stretches are a fold from the launch memory: `W1` after the first host stretch, `W2` with the first region's arrays at
  what its write-backs leave, `W3`, `W4` likewise, `W5` at the end. Every weakly fair execution terminates, nothing
  faulting, with every unscoped buffer at `W5`; here that is kept for the two result buffers (the output vector and the
  second hidden layer), beside the ten arguments ending as launched.
-/
import proofs.«181715_j2963527434318_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the output vector and the second hidden
    layer at the last boundary's contents and the arguments as launched. -/
theorem run_named : θ_run defs (onTc (τ := τ) (main (F := F))) ⟨m, fun _ => 0, ρ⟩ (fun r => ∀ c : Dev nD,
      r.2.mem ((c.tc : Thread nD τ).loc main_v45) = W5 m ρ c (Proc.devRef .tc main_v45)
      ∧ r.2.mem ((c.tc : Thread nD τ).loc main_v44_0) = W5 m ρ c (Proc.devRef .tc main_v44_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v45 (by decide)),
       h c _ (mem_uc main_v44_0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c)⟩)

end Cert.KernelIdeal.RunValue

end
-- ==== Proof.Spec.lean ====
/-
  The two-layer mean-aggregating graph network, as functions of the argument arrays at the ideal values
  (extended reals, every operation exact).

  The node features form a [100000, 64] array, the edges a [2, 1280000] integer array whose row 0 holds each
  edge's source node and row 1 its destination node. `agg feat ei` is the mean over the incoming edges: the source
  rows of `feat` gathered per edge (a negative source index wrapped once by the node count), summed into the
  destination rows, and divided by the in-degree of the row, the degree clamped below at 1. It is a chain of host
  operations that both programs apply verbatim; nothing below opens it.

  One layer, on one row: `rowLayer m x Wl Wr b q = max ((Σ_k m k · Wl (k, q) + Σ_k x k · Wr (k, q)) + b q) 0`,
  with `m` the aggregated row, `x` the node's own row and the weights already transposed to [in, out].
  `layer` lays `rowLayer` along the rows of whole arrays (bias a vector), `layer2d` is the same with the bias a
  [1, 64] row. The head on one row is `Σ_k h k · Wh (k, 0) + bh`: `head2d` gives the [100000, 1] column (bias a
  [1, 1] array), `headVec` the [100000] vector (bias a [1] array).

  `H1`, `H2`, `Out`: the first hidden layer, the second, and the output, of the ten arguments.
-/
import proofs.«181715_j2963527434318_1_alg».proof.KernelIdeal
import Idealize.ShloMosaic.Lib.ValueIdx
import Idealize.ShloMosaic.PureOps.Ideal

noncomputable section

open scoped BigOperators

namespace Cert.Sage

open Idealize.ShloMosaic Idealize.ShloMosaic.ValueIdx Cert.KernelIdeal

/-! ## The shared host chain -/

section Chain
variable [Facts₀]
open Facts₀

/-- Row `r` of the edge array as a vector of 1280000 node indices. -/
def edgeRow0 (ei : IVec S2x1280000 32) : IVec S1280000 32 :=
  shapeCast _ (extractStridedSlice S1x1280000 ![0, 0] ei slices_S2x1280000_S1x1280000_0_0) shapeCasts_S1x1280000_S1280000

def edgeRow1 (ei : IVec S2x1280000 32) : IVec S1280000 32 :=
  shapeCast _ (extractStridedSlice S1x1280000 ![1, 0] ei slices_S2x1280000_S1x1280000_1_0) shapeCasts_S1x1280000_S1280000

/-- The destination indices as the [1280000, 1] index array of a scatter. -/
def dstIdx (ei : IVec S2x1280000 32) : IVec S1280000x1 32 :=
  broadcastInDim S1280000x1 ![0] bcast_S1280000_S1280000x1_0 (edgeRow1 ei)

/-- The source indices, a negative one wrapped by the node count, as the [1280000, 1] index array of a gather. -/
def srcIdx (ei : IVec S2x1280000 32) : IVec S1280000x1 32 :=
  broadcastInDim S1280000x1 ![0] bcast_S1280000_S1280000x1_0
    (select (cmpi .slt (edgeRow0 ei) (broadcastInDim S1280000 ![] bcast_S_S1280000 (constantI S_ 32 0#32)))
      (addi (edgeRow0 ei) (broadcastInDim S1280000 ![] bcast_S_S1280000 (constantI S_ 32 100000#32))) (edgeRow0 ei))

/-- The in-degree of every node, clamped below at 1, as a [100000, 1] column. -/
def degCol (ei : IVec S2x1280000 32) : FVec Ideal S100000x1 .f32 :=
  broadcastInDim S100000x1 ![0] bcast_S100000_S100000x1_0
    (maximumf
      (Host.scatterAdd scatter_S100000_S1280000x1_S1280000_n_0_0_1
        (broadcastInDim S100000 ![] bcast_S_S100000 (constant S_ .f32 0x00000000#32)) (dstIdx ei)
        (broadcastInDim S1280000 ![] bcast_S_S1280000 (constant S_ .f32 0x3F800000#32)))
      (broadcastInDim S100000 ![] bcast_S_S100000 (constant S_ .f32 0x3F800000#32)))

/-- The mean of the source rows of `feat` over each node's incoming edges. -/
def agg (feat : FVec Ideal S100000x64 .f32) (ei : IVec S2x1280000 32) : FVec Ideal S100000x64 .f32 :=
  Host.divf
    (Host.scatterAdd scatter_S100000x64_S1280000x1_S1280000x64_1_0_0_1
      (broadcastInDim S100000x64 ![] bcast_S_S100000x64 (constant S_ .f32 0x00000000#32)) (dstIdx ei)
      (Host.gather gather_S100000x64_S1280000x1_S1280000x64_1_0_n_n_0_1_164 feat (srcIdx ei)))
    (broadcastInDim S100000x64 ![0, 1] bcast_S100000x1_S100000x64_0_1 (degCol ei))

/-- A weight matrix [out, in] transposed to [in, out]. -/
def tr (w : FVec Ideal S64x64 .f32) : FVec Ideal S64x64 .f32 := transpose S64x64 [1, 0] w transposes_S64x64_S64x64_1_0

/-- The head's weight row [1, 64] transposed to the column [64, 1]. -/
def trh (w : FVec Ideal S1x64 .f32) : FVec Ideal S64x1 .f32 := transpose S64x1 [1, 0] w transposes_S1x64_S64x1_1_0

end Chain

/-! ## One layer and the head -/

/-- One layer on one row. -/
def rowLayer (mrow xrow : Fin 64 → EReal) (wl wr : FVec Ideal S64x64 .f32) (b : Fin 64 → EReal) (q : Fin 64) : EReal :=
  max (((∑ k : Fin 64, mrow k * wl (ix2 k q)) + ∑ k : Fin 64, xrow k * wr (ix2 k q)) + b q) 0

/-- One layer on whole arrays, the bias a vector. -/
def layer (mean x : FVec Ideal S100000x64 .f32) (wl wr : FVec Ideal S64x64 .f32) (b : FVec Ideal S64 .f32) :
    FVec Ideal S100000x64 .f32 :=
  fun i => rowLayer (fun k => mean (ix2 (n0 := 100000) (i 0) k)) (fun k => x (ix2 (n0 := 100000) (i 0) k)) wl wr
    (fun q => b (ix1 q)) (i 1)

theorem layer_apply (mean x : FVec Ideal S100000x64 .f32) (wl wr : FVec Ideal S64x64 .f32) (b : FVec Ideal S64 .f32)
    (p : Fin 100000) (q : Fin 64) :
    layer mean x wl wr b (ix2 p q)
      = rowLayer (fun k => mean (ix2 p k)) (fun k => x (ix2 p k)) wl wr (fun q => b (ix1 q)) q := rfl

/-- One layer on whole arrays, the bias a [1, 64] row. -/
def layer2d (mean x : FVec Ideal S100000x64 .f32) (wl wr : FVec Ideal S64x64 .f32) (b : FVec Ideal S1x64 .f32) :
    FVec Ideal S100000x64 .f32 :=
  fun i => rowLayer (fun k => mean (ix2 (n0 := 100000) (i 0) k)) (fun k => x (ix2 (n0 := 100000) (i 0) k)) wl wr
    (fun q => b (ix2 (0 : Fin 1) q)) (i 1)

theorem layer2d_apply (mean x : FVec Ideal S100000x64 .f32) (wl wr : FVec Ideal S64x64 .f32) (b : FVec Ideal S1x64 .f32)
    (p : Fin 100000) (q : Fin 64) :
    layer2d mean x wl wr b (ix2 p q)
      = rowLayer (fun k => mean (ix2 p k)) (fun k => x (ix2 p k)) wl wr (fun q => b (ix2 (0 : Fin 1) q)) q := rfl

/-- The head on one row. -/
def rowHead (hrow : Fin 64 → EReal) (wh : FVec Ideal S64x1 .f32) (bh : EReal) : EReal :=
  (∑ k : Fin 64, hrow k * wh (ix2 k (0 : Fin 1))) + bh

/-- The head as a [100000, 1] column, the bias a [1, 1] array. -/
def head2d (h : FVec Ideal S100000x64 .f32) (wh : FVec Ideal S64x1 .f32) (bh : FVec Ideal S1x1 .f32) :
    FVec Ideal S100000x1 .f32 :=
  fun i => rowHead (fun k => h (ix2 (n0 := 100000) (i 0) k)) wh (bh (ix2 (0 : Fin 1) (0 : Fin 1)))

theorem head2d_apply (h : FVec Ideal S100000x64 .f32) (wh : FVec Ideal S64x1 .f32) (bh : FVec Ideal S1x1 .f32)
    (p : Fin 100000) (u : Fin 1) :
    head2d h wh bh (ix2 p u) = rowHead (fun k => h (ix2 p k)) wh (bh (ix2 (0 : Fin 1) (0 : Fin 1))) := rfl

/-- The head as a [100000] vector, the bias a [1] array. -/
def headVec (h : FVec Ideal S100000x64 .f32) (wh : FVec Ideal S64x1 .f32) (bh : FVec Ideal S1 .f32) :
    FVec Ideal S100000 .f32 :=
  fun i => rowHead (fun k => h (ix2 (n0 := 100000) (i 0) k)) wh (bh (ix1 (0 : Fin 1)))

theorem headVec_apply (h : FVec Ideal S100000x64 .f32) (wh : FVec Ideal S64x1 .f32) (bh : FVec Ideal S1 .f32)
    (p : Fin 100000) :
    headVec h wh bh (ix1 p) = rowHead (fun k => h (ix2 p k)) wh (bh (ix1 (0 : Fin 1))) := rfl

/-! ## The network -/

section Network
variable [Facts₀]

/-- The first hidden layer. -/
def H1 (x : FVec Ideal S100000x64 .f32) (ei : IVec S2x1280000 32) (w1l w1r : FVec Ideal S64x64 .f32)
    (b1 : FVec Ideal S64 .f32) : FVec Ideal S100000x64 .f32 :=
  layer (agg x ei) x (tr w1l) (tr w1r) b1

/-- The second hidden layer. -/
def H2 (x : FVec Ideal S100000x64 .f32) (ei : IVec S2x1280000 32) (w1l w1r : FVec Ideal S64x64 .f32)
    (b1 : FVec Ideal S64 .f32) (w2l w2r : FVec Ideal S64x64 .f32) (b2 : FVec Ideal S64 .f32) :
    FVec Ideal S100000x64 .f32 :=
  layer (agg (H1 x ei w1l w1r b1) ei) (H1 x ei w1l w1r b1) (tr w2l) (tr w2r) b2

/-- The output. -/
def Out (x : FVec Ideal S100000x64 .f32) (ei : IVec S2x1280000 32) (w1l w1r : FVec Ideal S64x64 .f32)
    (b1 : FVec Ideal S64 .f32) (w2l w2r : FVec Ideal S64x64 .f32) (b2 : FVec Ideal S64 .f32)
    (wh : FVec Ideal S1x64 .f32) (bh : FVec Ideal S1 .f32) : FVec Ideal S100000 .f32 :=
  headVec (H2 x ei w1l w1r b1 w2l w2r b2) (trh wh) bh

end Network

end Cert.Sage

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.LibDenseLayer.lean ====
/-
  A dense layer read at one entry, at the ideal values (extended reals, every operation exact).

  `affine x W bias j` is entry `j` of `x W + bias` for one row `x`: the sum over the contracted coordinate of the products,
  plus the bias entry. `layer_apply`: a plain matrix product of an [R, K] block by a [K, N] matrix accumulated into a zero
  splat, plus a [1, N] bias row laid along every row, read at the entry (p, j), is `affine` of row `p` of the block; nothing
  of it depends on the other rows or on `R`. `relu_apply`: the maximum with a splat of the zero word, read at an entry, is
  `max · 0`. `shapeCast_a1b_ab_apply`: an [a, 1, b] array cast to [a, b] reads, at (i, j), the operand at (i, 0, j).
-/
import Idealize.ShloMosaic.Lib.ValueLayout
import Idealize.ShloMosaic.Lib.StackMember
import Idealize.ShloMosaic.PureOps.Ideal.Laws

noncomputable section

open scoped BigOperators

namespace Cert.Lib.DenseLayer

open Idealize.ShloMosaic Idealize.ShloMosaic.ValueIdx Idealize.ShloMosaic.StackMember

/-- One affine layer on one row: entry `j` of `x W + bias`. -/
def affine {K N : Nat} (x : Fin K → EReal) (w : FVec Ideal ⟨2, ![K, N]⟩ .f32) (bias : Fin N → EReal) (j : Fin N) : EReal :=
  ∑ k : Fin K, x k * w (ix2 k j) + bias j

/-- A matrix product into a zero accumulator, plus a bias row laid along every row, read at the entry (p, j): the
    affine layer of row `p`. The dimension numbers are any record equal to the plain ones (contract the left operand's
    axis 1 with the right operand's axis 0, no batch axis). -/
theorem layer_apply {R K N : Nat} (D : DotDims ⟨2, ![R, K]⟩ ⟨2, ![K, N]⟩ ⟨2, ![R, N]⟩) (hD : D = DotDims.plain R K N)
    (prec : Option ContractPrecision) (h : FVec Ideal ⟨2, ![R, K]⟩ .f32) (w : FVec Ideal ⟨2, ![K, N]⟩ .f32)
    (bias : FVec Ideal ⟨2, ![1, N]⟩ .f32) (hb : (⟨2, ![1, N]⟩ : Shape).Broadcasts ⟨2, ![R, N]⟩) (p : Fin R) (j : Fin N) :
    addf (matmul D prec h w (constant ⟨2, ![R, N]⟩ .f32 0x00000000#32)) (broadcastTo ⟨2, ![R, N]⟩ bias hb) (ix2 p j)
      = affine (fun k => h (ix2 p k)) w (fun j => bias (ix2 (0 : Fin 1) j)) j := by
  subst hD
  rw [addf_apply, broadcastTo_1b_ab_apply]
  unfold affine
  refine congrArg (· + bias (ix2 (0 : Fin 1) j)) ?_
  exact (congrFun (matmul_zero_eq_dotGeneral _ prec h w) _).trans (dotGeneral_plain_apply prec h w p j)

/-- The maximum with a splat zero, read at an entry. -/
theorem relu_apply {s : Shape} (v : FVec Ideal s .f32) (i : s.Idx) :
    maximumf v (broadcast s (Scalar.ofBits (F := Ideal) .f32 0x00000000#32)) i = max (v i) 0 := by
  rw [maximumf_apply, broadcast_apply]
  show max (v i) (Ideal.ofBits .f32 0x00000000#32) = _
  rw [Ideal.ofBits_zero_f32]

/-- An `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Cert.Lib.DenseLayer

end
-- ==== Proof.Payload.lean ====
/-
  The two kernel bodies' arithmetic read at one entry, at the ideal values (extended reals, every operation exact).

  Each body takes a block of 5000 aggregated rows, the block of the same 5000 rows of the layer's input, the two
  weight matrices already transposed to [in, out] and the bias as a [1, 64] row, and forms
  max (m W_l + x W_r + b) 0. The casts to a narrower format and the same-shape casts between the loads and the
  products are identities here, so the entry (p, q) of the result is `rowLayer` of row p of the two blocks: it depends
  on no other row. The second body goes on to the head: the row just formed times the [64, 1] weight column, plus the
  [1, 1] bias, which is `rowHead` of that row.
-/
import proofs.«181715_j2963527434318_1_alg».proof.Proof.Spec
import proofs.«181715_j2963527434318_1_alg».proof.Proof.Gen.KernelIdeal.Skeleton
import proofs.«181715_j2963527434318_1_alg».proof.Proof.LibSoftplus
import proofs.«181715_j2963527434318_1_alg».proof.Proof.LibDenseLayer
import Idealize.ShloMosaic.Lib.ValueIdx
import Idealize.ShloMosaic.Lib.ValueLayout
import Idealize.ShloMosaic.Lib.Pipeline.Value

noncomputable section

open scoped BigOperators

namespace Cert.KernelIdeal.Payload

open Idealize.ShloMosaic Idealize.ShloMosaic.ValueIdx Cert.KernelIdeal Cert.KernelIdeal.Gen Cert.Sage

theorem pay0_apply (x0 x1 : Vec Ideal S5000x64 .f32) (x2 x4 : Vec Ideal S64x64 .f32) (x3 : Vec Ideal S1x64 .f32) (p : Fin 5000) (q : Fin 64) :
    k0_pay1 (F := Ideal) x0 x1 x2 x4 x3 (ix2 p q)
      = rowLayer (fun k => x0 (ix2 p k)) (fun k => x1 (ix2 p k)) x2 x4 (fun q => x3 (ix2 (0 : Fin 1) q)) q := by
  unfold k0_pay1
  rw [Cert.Lib.DenseLayer.relu_apply, addf_apply, addf_apply, broadcastTo_1b_ab_apply,
    Cert.Lib.Softplus.matmul0_plain_apply (R := 5000) (K := 64) (N := 64) dot_S5000x64_S64x64_S5000x64_1_0_0_1_n_n rfl,
    Cert.Lib.Softplus.matmul0_plain_apply (R := 5000) (K := 64) (N := 64) dot_S5000x64_S64x64_S5000x64_1_0_0_1_n_n rfl]
  simp only [truncf_apply, shapeCast_self]
  rfl

theorem pay1_apply (x0 x1 : Vec Ideal S5000x64 .f32) (x2 x4 : Vec Ideal S64x64 .f32) (x3 : Vec Ideal S1x64 .f32) (p : Fin 5000) (q : Fin 64) :
    k1_pay1 (F := Ideal) x0 x1 x2 x4 x3 (ix2 p q)
      = rowLayer (fun k => x0 (ix2 p k)) (fun k => x1 (ix2 p k)) x2 x4 (fun q => x3 (ix2 (0 : Fin 1) q)) q := by
  unfold k1_pay1
  rw [Cert.Lib.DenseLayer.relu_apply, addf_apply, addf_apply, broadcastTo_1b_ab_apply,
    Cert.Lib.Softplus.matmul0_plain_apply (R := 5000) (K := 64) (N := 64) dot_S5000x64_S64x64_S5000x64_1_0_0_1_n_n rfl,
    Cert.Lib.Softplus.matmul0_plain_apply (R := 5000) (K := 64) (N := 64) dot_S5000x64_S64x64_S5000x64_1_0_0_1_n_n rfl]
  simp only [truncf_apply, shapeCast_self]
  rfl

theorem pay2_apply (x0 x1 : Vec Ideal S5000x64 .f32) (x2 x4 : Vec Ideal S64x64 .f32) (x3 : Vec Ideal S1x64 .f32) (x5 : Vec Ideal S64x1 .f32) (x6 : Vec Ideal S1x1 .f32) (p : Fin 5000) (u : Fin 1) :
    k1_pay2 (F := Ideal) x0 x1 x2 x4 x3 x5 x6 (ix2 p u)
      = rowHead (fun k => rowLayer (fun k' => x0 (ix2 p k')) (fun k' => x1 (ix2 p k')) x2 x4 (fun q => x3 (ix2 (0 : Fin 1) q)) k) x5 (x6 (ix2 (0 : Fin 1) (0 : Fin 1))) := by
  obtain rfl : u = 0 := Subsingleton.elim _ _
  unfold k1_pay2
  rw [addf_apply, broadcastTo_1b_ab_apply,
    Cert.Lib.Softplus.matmul0_plain_apply (R := 5000) (K := 64) (N := 1) dot_S5000x64_S64x1_S5000x1_1_0_0_1_n_n rfl]
  simp only [truncf_apply, shapeCast_self, pay1_apply]
  rfl

end Cert.KernelIdeal.Payload

end
-- ==== Proof.Region0.lean ====
/-
  What the first kernel leaves in its output array, as one function of the arrays it reads.

  The grid has 20 points. Point t reads rows 5000 t … 5000 t + 4999 of the aggregated means and of the node features,
  the two weight matrices and the bias row whole, and writes rows 5000 t … 5000 t + 4999 of the output. Entry (p, q) of
  what the body forms is `rowLayer` of row p of its two row blocks, which are rows 5000 t + p of the two arrays: so point
  t writes block t of `layer2d` of the five arrays. Every row r of the 100000 lies in the block of point r / 5000, and
  every point writes back, so the array ends holding `layer2d` of the five arrays.
-/
import proofs.«181715_j2963527434318_1_alg».proof.Proof.Spec
import proofs.«181715_j2963527434318_1_alg».proof.Proof.Payload
import proofs.«181715_j2963527434318_1_alg».proof.Proof.Gen.KernelIdeal.Frame
import Idealize.ShloMosaic.Lib.ValueIdx
import Idealize.ShloMosaic.Lib.Pipeline.Value

noncomputable section

namespace Cert.KernelIdeal.RegionValue

open Idealize.ShloMosaic Idealize.ShloMosaic.TcCoe Idealize.SL.Sem Idealize.ShloMosaic.Pipeline
open Cert.KernelIdeal Cert.KernelIdeal.Gen Cert.Sage
open Idealize.ShloMosaic.ValueIdx Cert.KernelIdeal.Payload

variable (V : (c : Dev nD) → (b : Ref sig .tc) → Buf (Elt Ideal) ((c : Thread nD τ).loc b))

/-- The zero offsets of a whole-buffer rectangle, however they are spelt. -/
theorem zero_offsets : (![0, 0] : Fin 2 → Nat) = fun _ => 0 := funext fun a => by fin_cases a <;> rfl

/-- The block each window holds at point t: the two row-block inputs and the output at block (t, 0), the two weight
    matrices and the bias row at block (0, 0). Decided over the 20 points. -/
theorem block_index : ∀ t : Fin cfg0.N,
    win0_5.index t (0 : Fin 2) = t.val ∧ win0_5.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- There are 20 points. -/
theorem point_lt (t : Fin cfg0.N) : t.val < 20 := by
  exact lt_of_lt_of_eq t.isLt N_0

/-- The means' block at point t, row p: row 5000 t + p of the array. -/
theorem mean_block (c : Dev nD) (t : Fin cfg0.N) (p : Fin 5000) (k : Fin 64) (r : Fin 100000)
    (hr : r.val = t.val * 5000 + p.val) :
    (iblk0 V c 0 t : Vec Ideal S5000x64 .f32) (ix2 p k) = V c main_v22 (ix2 r k) := by
  obtain ⟨-, -, e0, e1, -⟩ := block_index t
  show V c main_v22 (((cfg0.win 0).blk t).view.emb (ix2 p k)) = V c main_v22 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 64 + 1 * k.val = k.val; omega

/-- The node features' block at point t, row p: row 5000 t + p of the array. -/
theorem own_block (c : Dev nD) (t : Fin cfg0.N) (p : Fin 5000) (k : Fin 64) (r : Fin 100000)
    (hr : r.val = t.val * 5000 + p.val) :
    (iblk0 V c 1 t : Vec Ideal S5000x64 .f32) (ix2 p k) = V c main_arg0 (ix2 r k) := by
  obtain ⟨-, -, -, -, e0, e1, -⟩ := block_index t
  show V c main_arg0 (((cfg0.win 1).blk t).view.emb (ix2 p k)) = V c main_arg0 (ix2 r k)
  refine congrArg _ (funext fun a => Fin.ext ?_)
  match a with
  | ⟨0, _⟩ => show win0_1.index t (0 : Fin 2) * 5000 + 1 * p.val = r.val; omega
  | ⟨1, _⟩ => show win0_1.index t (1 : Fin 2) * 64 + 1 * k.val = k.val; omega

/-- The left weights' block at every point is the whole matrix. -/
theorem left_weights_block (c : Dev nD) (t : Fin cfg0.N) :
    (iblk0 V c 2 t : Vec Ideal S64x64 .f32) = V c main_v23 := by
  obtain ⟨-, -, -, -, -, -, e0, e1, -⟩ := block_index t
  funext y
  show V c main_v23 (((cfg0.win 2).blk t).view.emb y) = V c main_v23 y
  refine congrArg _ (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- The bias row's block at every point is the whole row. -/
theorem bias_block (c : Dev nD) (t : Fin cfg0.N) :
    (iblk0 V c 3 t : Vec Ideal S1x64 .f32) = V c main_v25 := by
  obtain ⟨-, -, -, -, -, -, -, -, e0, e1, -⟩ := block_index t
  funext y
  show V c main_v25 (((cfg0.win 3).blk t).view.emb y) = V c main_v25 y
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- The right weights' block at every point is the whole matrix. -/
theorem right_weights_block (c : Dev nD) (t : Fin cfg0.N) :
    (iblk0 V c 4 t : Vec Ideal S64x64 .f32) = V c main_v24 := by
  obtain ⟨-, -, -, -, -, -, -, -, -, -, e0, e1⟩ := block_index t
  funext y
  show V c main_v24 (((cfg0.win 4).blk t).view.emb y) = V c main_v24 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- One layer on one row depends on its five arguments only. -/
theorem rowLayer_congr {m m' x x' : Fin 64 → EReal} {wl wl' wr wr' : FVec Ideal S64x64 .f32} {b b' : Fin 64 → EReal}
    (q : Fin 64) (hm : m = m') (hx : x = x') (hl : wl = wl') (hr : wr = wr') (hb : b = b') :
    rowLayer m x wl wr b q = rowLayer m' x' wl' wr' b' q := by
  subst hm hx hl hr hb; rfl

/-- Entry y of what point t forms from its blocks is the layer of the five arrays at y's place in the output array. -/
theorem block_entry (c : Dev nD) (t : Fin cfg0.N) (y : S5000x64.Idx) :
    k0_pay1 (F := Ideal) (iblk0 V c 0 t) (iblk0 V c 1 t) (iblk0 V c 2 t) (iblk0 V c 4 t) (iblk0 V c 3 t) y
      = layer2d (V c main_v22) (V c main_arg0) (V c main_v23) (V c main_v24) (V c main_v25)
          (((cfg0.win 5).blk t).view.emb y) := by
  obtain ⟨p, q, rfl⟩ : ∃ (p : Fin 5000) (q : Fin 64), y = ix2 p q := ⟨y 0, y 1, eq_ix2 y⟩
  have ht := point_lt t
  have hp : p.val < 5000 := p.isLt
  have hemb : ((cfg0.win 5).blk t).view.emb (ix2 p q) = ix2 (⟨t.val * 5000 + p.val, by omega⟩ : Fin 100000) q := by
    obtain ⟨e0, e1, -⟩ := block_index t
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  rw [hemb, layer2d_apply, pay0_apply]
  exact rowLayer_congr q (funext fun k => mean_block V c t p k _ rfl) (funext fun k => own_block V c t p k _ rfl)
    (left_weights_block V c t) (right_weights_block V c t) (funext fun q' => congrFun (bias_block V c t) (ix2 (0 : Fin 1) q'))

/-- What point t writes back is block t of the layer of the five arrays. -/
theorem flushed_rows (c : Dev nD) (t : Fin cfg0.N) :
    (dat0 (F := Ideal) V c).flushed 5 t
      = ((cfg0.win 5).blk t).view.read (Elt Ideal)
          (layer2d (V c main_v22) (V c main_arg0) (V c main_v23) (V c main_v24) (V c main_v25)) := by
  show (cfg0.win 5).cut (grid0.coords t) ((dat0 V c).after 5 t) = _
  rw [after0_5]
  unfold out0_5
  rw [View.canon_unit_zero zero_offsets]
  simp only [View.ld_unit_zero (S := S5000x64) zero_offsets, View.ld_unit_zero (S := S64x64) zero_offsets,
    View.ld_unit_zero (S := S1x64) zero_offsets]
  funext j
  exact block_entry V c t j

/-- A row of the output array is in point t's block iff each coordinate is in the block's range on its axis. -/
theorem mem_rows (t : Fin cfg0.N) (i : S100000x64.Idx) :
    i ∈ ((cfg0.win 5).blk t).view.set
      ↔ ∀ a : Fin 2, win0_5.index t a * S5000x64.size a ≤ (i a).val
          ∧ (i a).val < win0_5.index t a * S5000x64.size a + S5000x64.size a := by
  show i ∈ ((View.whole main_v26).slice (win0_5.rect t)).set ↔ _
  rw [View.set_slice_whole, Rect.mem_set_unit]
  exact Iff.rfl

/-- Row r lies in the block of point r / 5000, and every point writes back. -/
theorem rows_covered (i : S100000x64.Idx) :
    ∃ t : Fin cfg0.N, (cfg0.win 5).flush t = true ∧ i ∈ ((cfg0.win 5).blk t).view.set := by
  have hi0 : (i 0).val < 100000 := idx2_lt0 i
  have hi1 : (i 1).val < 64 := idx2_lt1 i
  have hN : (i 0).val / 5000 < cfg0.N := by rw [show cfg0.N = 20 from N_0]; omega
  refine ⟨⟨(i 0).val / 5000, hN⟩, flush0_5 _, ?_⟩
  rw [mem_rows]
  obtain ⟨e0, e1, -⟩ := block_index ⟨(i 0).val / 5000, hN⟩
  have e0' : win0_5.index ⟨(i 0).val / 5000, hN⟩ (0 : Fin 2) = (i 0).val / 5000 := e0
  intro a
  match a with
  | ⟨0, _⟩ =>
    show win0_5.index ⟨(i 0).val / 5000, hN⟩ (0 : Fin 2) * 5000 ≤ (i 0).val
      ∧ (i 0).val < win0_5.index ⟨(i 0).val / 5000, hN⟩ (0 : Fin 2) * 5000 + 5000
    omega
  | ⟨1, _⟩ =>
    show win0_5.index ⟨(i 0).val / 5000, hN⟩ (1 : Fin 2) * 64 ≤ (i 1).val
      ∧ (i 1).val < win0_5.index ⟨(i 0).val / 5000, hN⟩ (1 : Fin 2) * 64 + 64
    omega

/-- The first kernel's output array after its 20 points: the layer of the five arrays it reads. -/
theorem final0_5 (c : Dev nD) :
    (dat0 (F := Ideal) V c).arrAt 5 cfg0.N
      = layer2d (V c main_v22) (V c main_arg0) (V c main_v23) (V c main_v24) (V c main_v25) :=
  (dat0 (F := Ideal) V c).arrAt_eq_of_cover 5
    (layer2d (V c main_v22) (V c main_arg0) (V c main_v23) (V c main_v24) (V c main_v25))
    (fun t _ => flushed_rows V c t) rows_covered

end Cert.KernelIdeal.RegionValue

end
-- ==== Proof.Region1.lean ====
/-
  The second layer's region: its two output arrays, each as one function of the arrays the region reads.

  The region runs over twenty grid points. Point `t` reads rows `5000 t … 5000 t + 4999` of the aggregated means and
  of the first hidden layer, and the whole of the two weight matrices, the bias row, the head's weight column and the
  head's bias; it writes rows `5000 t … 5000 t + 4999` of the second hidden layer and of the output column.

  On one row the body computes `rowLayer` of the row's means and features, and `rowHead` of that; so what point `t`
  writes back is block `t` of `layer2d` (of `head2d` of `layer2d`) of the whole input arrays. Row `r` lies in the
  block of point `r / 5000` and every point writes its block back, so after the region the two arrays hold
  `layer2d …` and `head2d (layer2d …) …`.
-/
import proofs.«181715_j2963527434318_1_alg».proof.Proof.Spec
import proofs.«181715_j2963527434318_1_alg».proof.Proof.Payload
import proofs.«181715_j2963527434318_1_alg».proof.Proof.Gen.KernelIdeal.Frame
import Idealize.ShloMosaic.Lib.Pipeline.Value
import Idealize.ShloMosaic.Lib.ValueIdx

noncomputable section

namespace Cert.KernelIdeal.RegionValue
open Idealize.ShloMosaic Idealize.ShloMosaic.TcCoe Idealize.SL.Sem Idealize.ShloMosaic.Pipeline
open Idealize.ShloMosaic.ValueIdx
open Cert.KernelIdeal Cert.KernelIdeal.Gen Cert.Sage Cert.KernelIdeal.Payload

variable (V : (c : Dev nD) → (b : Ref sig .tc) → Buf (Elt Ideal) ((c : Thread nD τ).loc b))

private theorem zero_off1 : (![0, 0] : Fin 2 → Nat) = fun _ => 0 := funext fun a => by fin_cases a <;> rfl

/-- The block index maps of the second layer's windows over its twenty grid points: the two row-blocked inputs and
    the two outputs sit at row block `t`, column block 0; the weights and biases at block (0, 0). -/
private theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row `p` of row block `t` is a row of the array. -/
private theorem row_lt1 (t : Fin cfg1.N) (p : Fin 5000) : t.val * 5000 + p.val < 100000 := by
  have ht : t.val < 20 := lt_of_lt_of_eq t.isLt (show cfg1.N = 20 from N_1)
  have hp := p.isLt
  omega

/-- The aggregated means' block at point `t`: rows `5000 t … 5000 t + 4999` of the array. -/
private theorem rows1_0 (c : Dev nD) (t : Fin cfg1.N) (p : Fin 5000) :
    (fun k : Fin 64 => (iblk1 V c 0 t : Vec Ideal S5000x64 .f32) (ix2 p k))
      = fun k : Fin 64 => (V c main_v38 : FVec Ideal S100000x64 .f32) (ix2 (⟨t.val * 5000 + p.val, row_lt1 t p⟩ : Fin 100000) k) := by
  obtain ⟨e0a, e0b, -⟩ := index_facts1 t
  funext k
  show V c main_v38 (((cfg1.win 0).blk t).view.emb (ix2 p k)) = V c main_v38 _
  congr 1
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- The first hidden layer's block at point `t`: the same rows of its array. -/
private theorem rows1_1 (c : Dev nD) (t : Fin cfg1.N) (p : Fin 5000) :
    (fun k : Fin 64 => (iblk1 V c 1 t : Vec Ideal S5000x64 .f32) (ix2 p k))
      = fun k : Fin 64 => (V c main_v26 : FVec Ideal S100000x64 .f32) (ix2 (⟨t.val * 5000 + p.val, row_lt1 t p⟩ : Fin 100000) k) := by
  obtain ⟨-, -, e1a, e1b, -⟩ := index_facts1 t
  funext k
  show V c main_v26 (((cfg1.win 1).blk t).view.emb (ix2 p k)) = V c main_v26 _
  congr 1
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- The left weights' block at every point is the whole matrix. -/
private theorem whole1_2 (c : Dev nD) (t : Fin cfg1.N) :
    (iblk1 V c 2 t : Vec Ideal S64x64 .f32) = (V c main_v39 : FVec Ideal S64x64 .f32) := by
  obtain ⟨-, -, -, -, e2a, e2b, -⟩ := index_facts1 t
  funext y
  show V c main_v39 (((cfg1.win 2).blk t).view.emb y) = V c main_v39 y
  congr 1
  funext a; apply Fin.ext
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- The bias row's block at every point is the whole row. -/
private theorem whole1_3 (c : Dev nD) (t : Fin cfg1.N) :
    (iblk1 V c 3 t : Vec Ideal S1x64 .f32) = (V c main_v41 : FVec Ideal S1x64 .f32) := by
  obtain ⟨-, -, -, -, -, -, e3a, e3b, -⟩ := index_facts1 t
  funext y
  show V c main_v41 (((cfg1.win 3).blk t).view.emb y) = V c main_v41 y
  congr 1
  funext a; apply Fin.ext
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- The right weights' block at every point is the whole matrix. -/
private theorem whole1_4 (c : Dev nD) (t : Fin cfg1.N) :
    (iblk1 V c 4 t : Vec Ideal S64x64 .f32) = (V c main_v40 : FVec Ideal S64x64 .f32) := by
  obtain ⟨-, -, -, -, -, -, -, -, e4a, e4b, -⟩ := index_facts1 t
  funext y
  show V c main_v40 (((cfg1.win 4).blk t).view.emb y) = V c main_v40 y
  congr 1
  funext a; apply Fin.ext
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- What point `t` writes back to the second hidden layer's array is block `t` of the layer of the region's
    input arrays. -/
theorem flushed1_7_eq (c : Dev nD) (t : Fin cfg1.N) :
    (dat1 (F := Ideal) V c).flushed 7 t
      = ((cfg1.win 7).blk t).view.read (Elt Ideal)
          (layer2d (V c main_v38) (V c main_v26) (V c main_v39) (V c main_v40) (V c main_v41)) := by
  show (cfg1.win 7).cut (grid1.coords t) ((dat1 V c).after 7 t) = _
  rw [after1_7]
  unfold out1_7
  rw [View.canon_unit_zero zero_off1]
  simp only [View.ld_unit_zero (S := S5000x64) zero_off1, View.ld_unit_zero (S := S64x64) zero_off1, View.ld_unit_zero (S := S1x64) zero_off1]
  funext j
  show k1_pay1 (F := Ideal) (iblk1 V c 0 t) (iblk1 V c 1 t) (iblk1 V c 2 t) (iblk1 V c 4 t) (iblk1 V c 3 t) j
     = layer2d (V c main_v38) (V c main_v26) (V c main_v39) (V c main_v40) (V c main_v41) (((cfg1.win 7).blk t).view.emb j)
  obtain ⟨p, q, rfl⟩ : ∃ (p : Fin 5000) (q : Fin 64), j = ix2 p q := ⟨j 0, j 1, eq_ix2 j⟩
  have he : ((cfg1.win 7).blk t).view.emb (ix2 p q) = ix2 (⟨t.val * 5000 + p.val, row_lt1 t p⟩ : Fin 100000) q := by
    obtain ⟨-, -, -, -, -, -, -, -, -, -, -, -, -, -, e7a, e7b, -⟩ := index_facts1 t
    funext a; apply Fin.ext
    match a with
    | ⟨0, _⟩ => show win1_7.index t (0 : Fin 2) * 5000 + 1 * p.val = t.val * 5000 + p.val; omega
    | ⟨1, _⟩ => show win1_7.index t (1 : Fin 2) * 64 + 1 * q.val = q.val; omega
  rw [he, layer2d_apply, pay1_apply, rows1_0, rows1_1, whole1_2, whole1_3, whole1_4]

/-- An index of the second hidden layer's array lies in point `t`'s block iff each coordinate lies in the block's
    range on its axis. -/
private theorem mem_blk1_7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v44_0).slice (win1_7.rect t)).set ↔ _
  rw [View.set_slice_whole, Rect.mem_set_unit]
  exact Iff.rfl

/-- Row `r` lies in the block of point `r / 5000`, and every point writes its block back. -/
private theorem rows_cover1_7 (i : S100000x64.Idx) :
    ∃ t : Fin cfg1.N, (cfg1.win 7).flush t = true ∧ i ∈ ((cfg1.win 7).blk t).view.set := by
  have hi0 : (i 0).val < 100000 := (i 0).isLt
  have hi1 : (i 1).val < 64 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, -, -, -, -, e7a, e7b, -⟩ := index_facts1 t
  refine ⟨t, flush1_7 t, ?_⟩
  rw [mem_blk1_7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The second hidden layer's array after the region: the layer of the region's input arrays. -/
theorem final1_7 (c : Dev nD) :
    (dat1 (F := Ideal) V c).arrAt 7 cfg1.N
      = layer2d (V c main_v38) (V c main_v26) (V c main_v39) (V c main_v40) (V c main_v41) :=
  (dat1 (F := Ideal) V c).arrAt_eq_of_cover 7
    (layer2d (V c main_v38) (V c main_v26) (V c main_v39) (V c main_v40) (V c main_v41))
    (fun t _ => flushed1_7_eq V c t) rows_cover1_7

/-- The head's weight column's block at every point is the whole column. -/
private theorem whole1_5 (c : Dev nD) (t : Fin cfg1.N) :
    (iblk1 V c 5 t : Vec Ideal S64x1 .f32) = (V c main_v42 : FVec Ideal S64x1 .f32) := by
  obtain ⟨-, -, -, -, -, -, -, -, -, -, e5a, e5b, -⟩ := index_facts1 t
  funext y
  show V c main_v42 (((cfg1.win 5).blk t).view.emb y) = V c main_v42 y
  congr 1
  funext a; apply Fin.ext
  match a with
  | ⟨0, _⟩ => show win1_5.index t (0 : Fin 2) * 64 + 1 * (y 0).val = (y 0).val; omega
  | ⟨1, _⟩ => show win1_5.index t (1 : Fin 2) * 1 + 1 * (y 1).val = (y 1).val; omega

/-- The head's bias' block at every point is the whole [1, 1] array. -/
private theorem whole1_6 (c : Dev nD) (t : Fin cfg1.N) :
    (iblk1 V c 6 t : Vec Ideal S1x1 .f32) = (V c main_v43 : FVec Ideal S1x1 .f32) := by
  obtain ⟨-, -, -, -, -, -, -, -, -, -, -, -, e6a, e6b, -⟩ := index_facts1 t
  funext y
  show V c main_v43 (((cfg1.win 6).blk t).view.emb y) = V c main_v43 y
  congr 1
  funext a; apply Fin.ext
  match a with
  | ⟨0, _⟩ => show win1_6.index t (0 : Fin 2) * 1 + 1 * (y 0).val = (y 0).val; omega
  | ⟨1, _⟩ => show win1_6.index t (1 : Fin 2) * 1 + 1 * (y 1).val = (y 1).val; omega

/-- What point `t` writes back to the output column is block `t` of the head of the layer of the region's input
    arrays. -/
theorem flushed1_8_eq (c : Dev nD) (t : Fin cfg1.N) :
    (dat1 (F := Ideal) V c).flushed 8 t
      = ((cfg1.win 8).blk t).view.read (Elt Ideal)
          (head2d (layer2d (V c main_v38) (V c main_v26) (V c main_v39) (V c main_v40) (V c main_v41))
            (V c main_v42) (V c main_v43)) := by
  show (cfg1.win 8).cut (grid1.coords t) ((dat1 V c).after 8 t) = _
  rw [after1_8]
  unfold out1_8
  rw [View.canon_unit_zero zero_off1]
  simp only [View.ld_unit_zero (S := S5000x64) zero_off1, View.ld_unit_zero (S := S64x64) zero_off1, View.ld_unit_zero (S := S1x64) zero_off1, View.ld_unit_zero (S := S64x1) zero_off1, View.ld_unit_zero (S := S1x1) zero_off1]
  funext j
  show k1_pay2 (F := Ideal) (iblk1 V c 0 t) (iblk1 V c 1 t) (iblk1 V c 2 t) (iblk1 V c 4 t) (iblk1 V c 3 t) (iblk1 V c 5 t) (iblk1 V c 6 t) j
     = head2d (layer2d (V c main_v38) (V c main_v26) (V c main_v39) (V c main_v40) (V c main_v41))
         (V c main_v42) (V c main_v43) (((cfg1.win 8).blk t).view.emb j)
  obtain ⟨p, u, rfl⟩ : ∃ (p : Fin 5000) (u : Fin 1), j = ix2 p u := ⟨j 0, j 1, eq_ix2 j⟩
  have he : ((cfg1.win 8).blk t).view.emb (ix2 p u) = ix2 (⟨t.val * 5000 + p.val, row_lt1 t p⟩ : Fin 100000) u := by
    obtain ⟨-, -, -, -, -, -, -, -, -, -, -, -, -, -, -, -, e8a, e8b⟩ := index_facts1 t
    funext a; apply Fin.ext
    match a with
    | ⟨0, _⟩ => show win1_8.index t (0 : Fin 2) * 5000 + 1 * p.val = t.val * 5000 + p.val; omega
    | ⟨1, _⟩ => show win1_8.index t (1 : Fin 2) * 1 + 1 * u.val = u.val; omega
  rw [he, head2d_apply, pay2_apply, rows1_0, rows1_1, whole1_2, whole1_3, whole1_4, whole1_5, whole1_6]
  simp only [layer2d_apply]

/-- An index of the output column lies in point `t`'s block iff each coordinate lies in the block's range on its
    axis. -/
private theorem mem_blk1_8 (t : Fin cfg1.N) (i : S100000x1.Idx) :
    i ∈ ((cfg1.win 8).blk t).view.set ↔ ∀ a : Fin 2, win1_8.index t a * S5000x1.size a ≤ (i a).val ∧ (i a).val < win1_8.index t a * S5000x1.size a + S5000x1.size a := by
  show i ∈ ((View.whole main_v44_1).slice (win1_8.rect t)).set ↔ _
  rw [View.set_slice_whole, Rect.mem_set_unit]
  exact Iff.rfl

/-- Row `r` of the column lies in the block of point `r / 5000`, and every point writes its block back. -/
private theorem rows_cover1_8 (i : S100000x1.Idx) :
    ∃ t : Fin cfg1.N, (cfg1.win 8).flush t = true ∧ i ∈ ((cfg1.win 8).blk t).view.set := by
  have hi0 : (i 0).val < 100000 := (i 0).isLt
  have hi1 : (i 1).val < 1 := (i 1).isLt
  obtain ⟨t, ht⟩ : ∃ t : Fin cfg1.N, t.val = (i 0).val / 5000 :=
    ⟨⟨(i 0).val / 5000, by rw [show cfg1.N = 20 from N_1]; omega⟩, rfl⟩
  obtain ⟨-, -, -, -, -, -, -, -, -, -, -, -, -, -, -, -, e8a, e8b⟩ := index_facts1 t
  refine ⟨t, flush1_8 t, ?_⟩
  rw [mem_blk1_8]
  intro a
  match a with
  | ⟨0, _⟩ => show win1_8.index t (0 : Fin 2) * 5000 ≤ (i 0).val ∧ (i 0).val < win1_8.index t (0 : Fin 2) * 5000 + 5000; omega
  | ⟨1, _⟩ => show win1_8.index t (1 : Fin 2) * 1 ≤ (i 1).val ∧ (i 1).val < win1_8.index t (1 : Fin 2) * 1 + 1; omega

/-- The output column after the region: the head of the layer of the region's input arrays. -/
theorem final1_8 (c : Dev nD) :
    (dat1 (F := Ideal) V c).arrAt 8 cfg1.N
      = head2d (layer2d (V c main_v38) (V c main_v26) (V c main_v39) (V c main_v40) (V c main_v41)) (V c main_v42) (V c main_v43) :=
  (dat1 (F := Ideal) V c).arrAt_eq_of_cover 8
    (head2d (layer2d (V c main_v38) (V c main_v26) (V c main_v39) (V c main_v40) (V c main_v41)) (V c main_v42) (V c main_v43))
    (fun t _ => flushed1_8_eq V c t) rows_cover1_8

end Cert.KernelIdeal.RegionValue
end
-- ==== Proof.LibColumnLayout.lean ====
/-
  Column forms of the layout operations, read at an index by coordinates: a vector [a] cast to the column [a, 1]
  and back, and a column [a, 1] broadcast along its unit axis to [a, b].  Each reads the operand at the same
  row; the unit axis carries coordinate 0.
-/
import Idealize.ShloMosaic.Lib.ValueLayout
import Idealize.ShloMosaic.Lib.Pipeline.Value

namespace PhysLoss

open Idealize.ShloMosaic Idealize.ShloMosaic.ValueIdx

variable {α : Type}

/-- A vector `[a]` cast to the column `[a, 1]` reads, at `(i, 0)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to the vector `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end PhysLoss
-- ==== Proof.SpecLayout.lean ====
/-
  The bias and the output in the layouts the kernel program hands them over in.

  The kernel's regions take each bias vector as a one-row matrix, a [64] vector cast to [1, 64] and the [1] head bias
  cast to [1, 1], and leave the output as a [100000, 1] column that the program casts to a [100000] vector at the
  end. A cast keeps the row-major order, so the one-row matrix holds the vector's entries in order and the column the
  vector's: the layer with the cast bias is the layer with the vector bias, and the column cast to a vector is the head
  read as a vector.
-/
import proofs.«181715_j2963527434318_1_alg».proof.Proof.Spec
import proofs.«181715_j2963527434318_1_alg».proof.Proof.LibColumnLayout
import Idealize.ShloMosaic.Lib.ValueLayout

noncomputable section

namespace Cert.Sage

open Idealize.ShloMosaic Idealize.ShloMosaic.ValueIdx Cert.KernelIdeal

/-- A layer whose bias row is the bias vector cast to [1, 64] is the layer with the vector. -/
theorem layer2d_cast (mean x : FVec Ideal S100000x64 .f32) (wl wr : FVec Ideal S64x64 .f32) (b : FVec Ideal S64 .f32)
    (h : S64.ShapeCasts S1x64) :
    layer2d mean x wl wr (shapeCast S1x64 b h) = layer mean x wl wr b := by
  funext i
  obtain ⟨p, q, rfl⟩ : ∃ (p : Fin 100000) (q : Fin 64), i = ix2 p q := ⟨i 0, i 1, eq_ix2 i⟩
  rw [layer2d_apply, layer_apply]
  refine congrArg (fun f => rowLayer _ _ wl wr f q) ?_
  funext q'
  exact shapeCast_a_1a_apply b h (0 : Fin 1) q'

/-- The head's column, its bias the [1] bias cast to [1, 1], cast to a vector: the head read as a vector. -/
theorem head2d_cast (hh : FVec Ideal S100000x64 .f32) (wh : FVec Ideal S64x1 .f32) (bh : FVec Ideal S1 .f32)
    (h1 : S1.ShapeCasts S1x1) (h2 : S100000x1.ShapeCasts S100000) :
    shapeCast S100000 (head2d hh wh (shapeCast S1x1 bh h1)) h2 = headVec hh wh bh := by
  funext i
  obtain ⟨p, rfl⟩ : ∃ p : Fin 100000, i = ix1 p := ⟨i 0, eq_ix1 i⟩
  rw [PhysLoss.shapeCast_a1_a_apply, head2d_apply, headVec_apply]
  refine congrArg (rowHead _ wh) ?_
  exact shapeCast_a_1a_apply bh h1 (0 : Fin 1) (0 : Fin 1)

end Cert.Sage

end
-- ==== Proof.KernelFold.lean ====
/-
  What the idealized kernel program leaves in its two result buffers, as the network of the arguments.

  The buffer contents at the boundaries of the program's five stretches are a fold from the launch memory. Reading
  it stretch by stretch: the first host stretch leaves the edge rows, the clamped in-degree column, the mean of the
  arguments' node features over the incoming edges (`agg`), the transposed weights and the bias as a one-row matrix;
  the first region turns these into the first hidden layer; the second host stretch aggregates that layer again and
  lays out the second layer's weights; the second region leaves the second hidden layer and the head's column; the
  closing cast turns the column into the output vector. The aggregation is never opened: both times it is the same
  chain of host operations that the specification names.
-/
import proofs.«181715_j2963527434318_1_alg».proof.Proof.Spec
import proofs.«181715_j2963527434318_1_alg».proof.Proof.Gen.KernelIdeal.Frame
import proofs.«181715_j2963527434318_1_alg».proof.Proof.Region0
import proofs.«181715_j2963527434318_1_alg».proof.Proof.Region1
import proofs.«181715_j2963527434318_1_alg».proof.Proof.SpecLayout
import Idealize.ShloMosaic.Lib.StableHlo.Run

set_option maxRecDepth 16384

noncomputable section

namespace Cert.KernelIdeal.FoldValue

open Cert.KernelIdeal Cert.KernelIdeal.Gen Cert.KernelIdeal.RegionValue Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first host stretch -/

theorem W1_arg0 (c : Dev nD) : W1 m ρ c (Proc.devRef .tc main_arg0) = (m ((c : Thread nD τ).loc main_arg0)) := by
  show StableHlo.after hostOps0 (W0 m ρ c) (Proc.devRef .tc main_arg0) = _
  after_results_simp <;> rfl

theorem W1_v1 (c : Dev nD) : W1 m ρ c (Proc.devRef .tc main_v1) = edgeRow0 (m ((c : Thread nD τ).loc main_arg1)) := by
  show StableHlo.after hostOps0 (W0 m ρ c) (Proc.devRef .tc main_v1) = _
  after_results_simp <;> rfl

theorem W1_v3 (c : Dev nD) : W1 m ρ c (Proc.devRef .tc main_v3) = edgeRow1 (m ((c : Thread nD τ).loc main_arg1)) := by
  show StableHlo.after hostOps0 (W0 m ρ c) (Proc.devRef .tc main_v3) = _
  after_results_simp <;> rfl

theorem W1_v10 (c : Dev nD) : W1 m ρ c (Proc.devRef .tc main_v10) = degCol (m ((c : Thread nD τ).loc main_arg1)) := by
  show StableHlo.after hostOps0 (W0 m ρ c) (Proc.devRef .tc main_v10) = _
  after_results_simp <;> rfl

theorem W1_v22 (c : Dev nD) : W1 m ρ c (Proc.devRef .tc main_v22) = agg (m ((c : Thread nD τ).loc main_arg0)) (m ((c : Thread nD τ).loc main_arg1)) := by
  show StableHlo.after hostOps0 (W0 m ρ c) (Proc.devRef .tc main_v22) = _
  after_results_simp <;> rfl

theorem W1_v23 (c : Dev nD) : W1 m ρ c (Proc.devRef .tc main_v23) = tr (m ((c : Thread nD τ).loc main_arg2)) := by
  show StableHlo.after hostOps0 (W0 m ρ c) (Proc.devRef .tc main_v23) = _
  after_results_simp <;> rfl

theorem W1_v24 (c : Dev nD) : W1 m ρ c (Proc.devRef .tc main_v24) = tr (m ((c : Thread nD τ).loc main_arg3)) := by
  show StableHlo.after hostOps0 (W0 m ρ c) (Proc.devRef .tc main_v24) = _
  after_results_simp <;> rfl

theorem W1_v25 (c : Dev nD) :
    W1 m ρ c (Proc.devRef .tc main_v25) = shapeCast S1x64 (m ((c : Thread nD τ).loc main_arg4)) Facts₀.shapeCasts_S64_S1x64 := by
  show StableHlo.after hostOps0 (W0 m ρ c) (Proc.devRef .tc main_v25) = _
  after_results_simp <;> rfl

/-! ## After the first region: the first hidden layer -/

theorem W2_v26 (c : Dev nD) :
    W2 m ρ c (Proc.devRef .tc main_v26) = H1 (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0_5 (V1 m ρ) c).trans ?_)
  show layer2d (W1 m ρ c (Proc.devRef .tc main_v22)) (W1 m ρ c (Proc.devRef .tc main_arg0))
      (W1 m ρ c (Proc.devRef .tc main_v23)) (W1 m ρ c (Proc.devRef .tc main_v24)) (W1 m ρ c (Proc.devRef .tc main_v25)) = _
  rw [W1_v22, W1_arg0, W1_v23, W1_v24, W1_v25]
  exact layer2d_cast _ _ _ _ _ _

/-! ## After the second host stretch -/

theorem W2_v1 (c : Dev nD) : W2 m ρ c (Proc.devRef .tc main_v1) = edgeRow0 (m ((c : Thread nD τ).loc main_arg1)) :=
  (W2_of_ne m ρ c main_v1 (by decide)).trans (W1_v1 m ρ c)

theorem W2_v3 (c : Dev nD) : W2 m ρ c (Proc.devRef .tc main_v3) = edgeRow1 (m ((c : Thread nD τ).loc main_arg1)) :=
  (W2_of_ne m ρ c main_v3 (by decide)).trans (W1_v3 m ρ c)

theorem W2_v10 (c : Dev nD) : W2 m ρ c (Proc.devRef .tc main_v10) = degCol (m ((c : Thread nD τ).loc main_arg1)) :=
  (W2_of_ne m ρ c main_v10 (by decide)).trans (W1_v10 m ρ c)

theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results_simp <;> rfl)

theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results_simp <;> rfl)

theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)

theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

/-- The second aggregation is the specification's chain applied to the first hidden layer. -/
theorem W3_v38 (c : Dev nD) : W3 m ρ c (Proc.devRef .tc main_v38) = agg (H1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) := by
  show StableHlo.after hostOps1 (W2 m ρ c) (Proc.devRef .tc main_v38) = _
  after_results_simp
  rw [W2_v26, W2_v1, W2_v3, W2_v10]
  rfl

theorem W3_v26 (c : Dev nD) : W3 m ρ c (Proc.devRef .tc main_v26) = (H1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps1 (W2 m ρ c) (Proc.devRef .tc main_v26) = _
  after_results_simp
  exact W2_v26 m ρ c

theorem W3_v39 (c : Dev nD) : W3 m ρ c (Proc.devRef .tc main_v39) = tr (m ((c : Thread nD τ).loc main_arg5)) := by
  show StableHlo.after hostOps1 (W2 m ρ c) (Proc.devRef .tc main_v39) = _
  after_results_simp
  rw [W2_arg5]
  rfl

theorem W3_v40 (c : Dev nD) : W3 m ρ c (Proc.devRef .tc main_v40) = tr (m ((c : Thread nD τ).loc main_arg6)) := by
  show StableHlo.after hostOps1 (W2 m ρ c) (Proc.devRef .tc main_v40) = _
  after_results_simp
  rw [W2_arg6]
  rfl

theorem W3_v41 (c : Dev nD) :
    W3 m ρ c (Proc.devRef .tc main_v41) = shapeCast S1x64 (m ((c : Thread nD τ).loc main_arg7)) Facts₀.shapeCasts_S64_S1x64 := by
  show StableHlo.after hostOps1 (W2 m ρ c) (Proc.devRef .tc main_v41) = _
  after_results_simp
  rw [W2_arg7]
  rfl

theorem W3_v42 (c : Dev nD) : W3 m ρ c (Proc.devRef .tc main_v42) = trh (m ((c : Thread nD τ).loc main_arg8)) := by
  show StableHlo.after hostOps1 (W2 m ρ c) (Proc.devRef .tc main_v42) = _
  after_results_simp
  rw [W2_arg8]
  rfl

theorem W3_v43 (c : Dev nD) :
    W3 m ρ c (Proc.devRef .tc main_v43) = shapeCast S1x1 (m ((c : Thread nD τ).loc main_arg9)) Facts₀.shapeCasts_S1_S1x1 := by
  show StableHlo.after hostOps1 (W2 m ρ c) (Proc.devRef .tc main_v43) = _
  after_results_simp
  rw [W2_arg9]
  rfl

/-! ## After the second region: the second hidden layer and the head's column -/

theorem W4_v44_0 (c : Dev nD) : W4 m ρ c (Proc.devRef .tc main_v44_0) = (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W4_arr m ρ c 7).trans ((final1_7 (V3 m ρ) c).trans ?_)
  show layer2d (W3 m ρ c (Proc.devRef .tc main_v38)) (W3 m ρ c (Proc.devRef .tc main_v26))
      (W3 m ρ c (Proc.devRef .tc main_v39)) (W3 m ρ c (Proc.devRef .tc main_v40)) (W3 m ρ c (Proc.devRef .tc main_v41)) = _
  rw [W3_v38, W3_v26, W3_v39, W3_v40, W3_v41]
  exact layer2d_cast _ _ _ _ _ _

theorem W4_v44_1 (c : Dev nD) :
    W4 m ρ c (Proc.devRef .tc main_v44_1)
      = head2d (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (trh (m ((c : Thread nD τ).loc main_arg8))) (shapeCast S1x1 (m ((c : Thread nD τ).loc main_arg9)) Facts₀.shapeCasts_S1_S1x1) := by
  refine (W4_arr m ρ c 8).trans ((final1_8 (V3 m ρ) c).trans ?_)
  show head2d (layer2d (W3 m ρ c (Proc.devRef .tc main_v38)) (W3 m ρ c (Proc.devRef .tc main_v26))
      (W3 m ρ c (Proc.devRef .tc main_v39)) (W3 m ρ c (Proc.devRef .tc main_v40)) (W3 m ρ c (Proc.devRef .tc main_v41)))
      (W3 m ρ c (Proc.devRef .tc main_v42)) (W3 m ρ c (Proc.devRef .tc main_v43)) = _
  rw [W3_v38, W3_v26, W3_v39, W3_v40, W3_v41, W3_v42, W3_v43, layer2d_cast]
  rfl

/-! ## At the end -/

/-- The output vector. -/
theorem W5_v45 (c : Dev nD) : W5 m ρ c (Proc.devRef .tc main_v45) = (Out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  show StableHlo.after hostOps2 (W4 m ρ c) (Proc.devRef .tc main_v45) = _
  after_results
  rw [W4_v44_1]
  exact head2d_cast _ _ _ _ _

/-- The second hidden layer. -/
theorem W5_v44_0 (c : Dev nD) : W5 m ρ c (Proc.devRef .tc main_v44_0) = (H2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps2 (W4 m ρ c) (Proc.devRef .tc main_v44_0) = _
  after_results
  exact W4_v44_0 m ρ c

end Cert.KernelIdeal.FoldValue

end
-- ==== Proof.RefValue.lean ====
/-
  The reference program's stages are the specification's functions.

  The reference computes, on whole arrays: the mean aggregation of the node features, the first layer
  relu (mean1 · W1lᵀ + b1 + x · W1rᵀ), the mean aggregation of that, the second layer, and the head
  h2 · Whᵀ + bh. Index by index each stage is the specification's row formula: a matrix product is the sum over
  the contracted axis, a broadcast bias is the bias at the column, the relu is the maximum with 0. The only
  law of the extended reals used is that addition is commutative and associative: the reference adds the bias
  between the two products, (A + b) + B, the specification after them, (A + B) + b.
-/
import proofs.«181715_j2963527434318_1_alg».proof.Proof.Spec
import proofs.«181715_j2963527434318_1_alg».proof.Proof.Gen.KernelIdeal
import proofs.«181715_j2963527434318_1_alg».proof.Proof.Gen.ReferenceIdeal.Read
import Idealize.ShloMosaic.Lib.ValueIdx
import Idealize.ShloMosaic.Lib.Pipeline.Value
import Idealize.ShloMosaic.PureOps.Ideal.Laws

noncomputable section

open scoped BigOperators

namespace Cert.ReferenceIdeal.RefValue

open Idealize.ShloMosaic Cert.ReferenceIdeal Cert.ReferenceIdeal.Read Cert.Sage
open Idealize.ShloMosaic.ValueIdx

/-! ## The host stages shared with the specification -/

/-- The first mean aggregation is the specification's, of the node features. -/
theorem v22_eq (x0 : (⟨S100000x64, .f32⟩ : BufTy).Contents (Elt Ideal)) (x1 : (⟨S2x1280000, .i32⟩ : BufTy).Contents (Elt Ideal)) :
    val_main_v22 (F := Ideal) x0 x1 = agg x0 x1 := rfl

/-- The second mean aggregation is the specification's, of the first layer. -/
theorem v43_eq (x0 : (⟨S100000x64, .f32⟩ : BufTy).Contents (Elt Ideal)) (x1 : (⟨S2x1280000, .i32⟩ : BufTy).Contents (Elt Ideal))
    (x2 x3 : (⟨S64x64, .f32⟩ : BufTy).Contents (Elt Ideal)) (x4 : (⟨S64, .f32⟩ : BufTy).Contents (Elt Ideal)) :
    val_main_v43 (F := Ideal) x0 x1 x2 x3 x4 = agg (val_main_v31 (F := Ideal) x0 x1 x2 x3 x4) x1 := rfl

theorem v23_eq (w : (⟨S64x64, .f32⟩ : BufTy).Contents (Elt Ideal)) : val_main_v23 (F := Ideal) w = tr w := rfl
theorem v28_eq (w : (⟨S64x64, .f32⟩ : BufTy).Contents (Elt Ideal)) : val_main_v28 (F := Ideal) w = tr w := rfl
theorem v44_eq (w : (⟨S64x64, .f32⟩ : BufTy).Contents (Elt Ideal)) : val_main_v44 (F := Ideal) w = tr w := rfl
theorem v49_eq (w : (⟨S64x64, .f32⟩ : BufTy).Contents (Elt Ideal)) : val_main_v49 (F := Ideal) w = tr w := rfl
theorem v53_eq (w : (⟨S1x64, .f32⟩ : BufTy).Contents (Elt Ideal)) : val_main_v53 (F := Ideal) w = trh w := rfl

/-! ## The index functions of the reading lemmas, at an index split into its coordinates -/

theorem lidx24 (p : Fin 100000) (q k : Fin 64) : lidx_main_v24 (ix2 p q) k = ix2 p k :=
  funext fun a => Fin.ext (by match a with | ⟨0, _⟩ => rfl | ⟨1, _⟩ => rfl)
theorem ridx24 (p : Fin 100000) (q k : Fin 64) : ridx_main_v24 (ix2 p q) k = ix2 k q :=
  funext fun a => Fin.ext (by match a with | ⟨0, _⟩ => rfl | ⟨1, _⟩ => rfl)
theorem lidx29 (p : Fin 100000) (q k : Fin 64) : lidx_main_v29 (ix2 p q) k = ix2 p k :=
  funext fun a => Fin.ext (by match a with | ⟨0, _⟩ => rfl | ⟨1, _⟩ => rfl)
theorem ridx29 (p : Fin 100000) (q k : Fin 64) : ridx_main_v29 (ix2 p q) k = ix2 k q :=
  funext fun a => Fin.ext (by match a with | ⟨0, _⟩ => rfl | ⟨1, _⟩ => rfl)
theorem lidx45 (p : Fin 100000) (q k : Fin 64) : lidx_main_v45 (ix2 p q) k = ix2 p k :=
  funext fun a => Fin.ext (by match a with | ⟨0, _⟩ => rfl | ⟨1, _⟩ => rfl)
theorem ridx45 (p : Fin 100000) (q k : Fin 64) : ridx_main_v45 (ix2 p q) k = ix2 k q :=
  funext fun a => Fin.ext (by match a with | ⟨0, _⟩ => rfl | ⟨1, _⟩ => rfl)
theorem lidx50 (p : Fin 100000) (q k : Fin 64) : lidx_main_v50 (ix2 p q) k = ix2 p k :=
  funext fun a => Fin.ext (by match a with | ⟨0, _⟩ => rfl | ⟨1, _⟩ => rfl)
theorem ridx50 (p : Fin 100000) (q k : Fin 64) : ridx_main_v50 (ix2 p q) k = ix2 k q :=
  funext fun a => Fin.ext (by match a with | ⟨0, _⟩ => rfl | ⟨1, _⟩ => rfl)
/-- The bias of the first layer, broadcast to a row and then to the array, is read at the column. -/
theorem bidx26 (p : Fin 100000) (q : Fin 64) : idx_main_v25 (idx_main_v26 (ix2 p q)) = ix1 q :=
  funext fun a => Fin.ext (by match a with | ⟨0, _⟩ => rfl)
theorem bidx47 (p : Fin 100000) (q : Fin 64) : idx_main_v46 (idx_main_v47 (ix2 p q)) = ix1 q :=
  funext fun a => Fin.ext (by match a with | ⟨0, _⟩ => rfl)

/-! ## The first layer -/

theorem v31_eq (x0 : (⟨S100000x64, .f32⟩ : BufTy).Contents (Elt Ideal)) (x1 : (⟨S2x1280000, .i32⟩ : BufTy).Contents (Elt Ideal))
    (x2 x3 : (⟨S64x64, .f32⟩ : BufTy).Contents (Elt Ideal)) (x4 : (⟨S64, .f32⟩ : BufTy).Contents (Elt Ideal)) :
    val_main_v31 (F := Ideal) x0 x1 x2 x3 x4 = H1 x0 x1 x2 x3 x4 := by
  funext i
  obtain ⟨p, q, rfl⟩ : ∃ (p : Fin 100000) (q : Fin 64), i = ix2 p q := ⟨i 0, i 1, eq_ix2 i⟩
  unfold H1
  rw [layer_apply, val_main_v31_apply, val_main_v30_apply, val_main_v27_apply, val_main_v24_apply, val_main_v26_apply,
    val_main_v25_apply, val_main_v29_apply, val_main_call0_v0_apply, val_main_call0_cst_apply, v22_eq, v23_eq, v28_eq, bidx26]
  simp only [lidx24, ridx24, lidx29, ridx29, rowLayer, Ideal.addf_def, Ideal.maximumf_def, Ideal.ofBits_def,
    Ideal.ofBits_zero_f32]
  rw [add_right_comm]

/-! ## The second layer -/

theorem ref_h2 (x0 : (⟨S100000x64, .f32⟩ : BufTy).Contents (Elt Ideal)) (x1 : (⟨S2x1280000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) :
    val_main_v52 (F := Ideal) x0 x1 x2 x3 x4 x5 x6 x7 = H2 x0 x1 x2 x3 x4 x5 x6 x7 := by
  funext i
  obtain ⟨p, q, rfl⟩ : ∃ (p : Fin 100000) (q : Fin 64), i = ix2 p q := ⟨i 0, i 1, eq_ix2 i⟩
  unfold H2
  rw [layer_apply, val_main_v52_apply, val_main_v51_apply, val_main_v48_apply, val_main_v45_apply, val_main_v47_apply,
    val_main_v46_apply, val_main_v50_apply, val_main_call1_v0_apply, val_main_call1_cst_apply, v43_eq, v44_eq, v49_eq,
    v31_eq, bidx47]
  simp only [lidx45, ridx45, lidx50, ridx50, rowLayer, Ideal.addf_def, Ideal.maximumf_def, Ideal.ofBits_def,
    Ideal.ofBits_zero_f32]
  rw [add_right_comm]

/-! ## The head -/

theorem lidx54 (p : Fin 100000) (k : Fin 64) : lidx_main_v54 (idx_main_v58 (ix1 p)) k = ix2 p k :=
  funext fun a => Fin.ext (by match a with | ⟨0, _⟩ => exact Nat.div_one _ | ⟨1, _⟩ => rfl)
theorem ridx54 (p : Fin 100000) (k : Fin 64) : ridx_main_v54 (idx_main_v58 (ix1 p)) k = ix2 k (0 : Fin 1) :=
  funext fun a => Fin.ext (by match a with | ⟨0, _⟩ => rfl | ⟨1, _⟩ => rfl)
/-- The head's bias, broadcast to [1, 1] and then to the column, is read at its one element. -/
theorem bidx56 (j : S100000x1.Idx) : idx_main_v55 (idx_main_v56 j) = ix1 (0 : Fin 1) :=
  funext fun a => Fin.ext (by match a with | ⟨0, _⟩ => rfl)

theorem ref_out (x0 : (⟨S100000x64, .f32⟩ : BufTy).Contents (Elt Ideal)) (x1 : (⟨S2x1280000, .i32⟩ : BufTy).Contents (Elt Ideal))
    (x2 x3 : (⟨S64x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal))
    (x8 : (⟨S1x64, .f32⟩ : BufTy).Contents (Elt Ideal)) (x9 : (⟨S1, .f32⟩ : BufTy).Contents (Elt Ideal)) :
    val_main_v58 (F := Ideal) x0 x1 x2 x3 x4 x5 x6 x7 x8 x9 = Out x0 x1 x2 x3 x4 x5 x6 x7 x8 x9 := by
  funext i
  obtain ⟨p, rfl⟩ : ∃ p : Fin 100000, i = ix1 p := ⟨i 0, eq_ix1 i⟩
  unfold Out
  rw [headVec_apply, val_main_v58_apply, val_main_v57_apply, val_main_v54_apply, val_main_v56_apply, val_main_v55_apply,
    v53_eq, ref_h2, bidx56]
  simp only [lidx54, ridx54, rowHead, Ideal.addf_def]

end Cert.ReferenceIdeal.RefValue

end
-- ==== Proof.lean ====
/-
  The certificate of a two-layer mean-aggregating graph network on 100000 nodes with 64 features and 1280000 edges,
  computed by a program with two pipelined regions (one per layer, each over 20 blocks of 5000 rows) around host
  operations, against the same network in plain array operations.

  Both programs aggregate on the host by the same chain of operations: gather the source rows per edge, add them into
  the destination rows, divide by the in-degree clamped below at 1. A layer is then, row by row,
  max ((mean · Wlᵀ + x · Wrᵀ) + b) 0, and the head h · Whᵀ + bh. At the ideal values (extended reals, every operation
  exact, a change of float format the identity) the region's products into zero accumulators are plain sums over the
  64 contracted coordinates, so each region's output array is the layer of its input arrays (Proof/Payload.lean at an
  entry of a block, Proof/Region0.lean and Proof/Region1.lean from the blocks to the arrays), the program's run leaves
  its results at the last of the buffer contents folded through its five stretches (Proof/KernelRun.lean), and reading
  that fold gives the network of the arguments (Proof/KernelFold.lean; Proof/Spec.lean states the network,
  Proof/SpecLayout.lean the bias and the output in the layouts the regions use). The reference's operations, read
  one at a time, give the same functions (Proof/RefValue.lean); the one law used is that addition of extended reals
  is commutative and associative, the reference adding the bias between the two products and the kernel after them.
  The idealized kernel program is the kernel's own text read at the ideal values (no operation was rewritten), so its
  faithfulness to the word-level program asks nothing.
-/
import proofs.«181715_j2963527434318_1_alg».proof.Defs
import proofs.«181715_j2963527434318_1_alg».proof.Proof.Gen.Kernel
import proofs.«181715_j2963527434318_1_alg».proof.Proof.Gen.Kernel.Frame
import proofs.«181715_j2963527434318_1_alg».proof.Proof.Gen.KernelIdeal
import proofs.«181715_j2963527434318_1_alg».proof.Proof.Gen.KernelIdeal.Frame
import proofs.«181715_j2963527434318_1_alg».proof.Proof.Gen.ReferenceIdeal
import proofs.«181715_j2963527434318_1_alg».proof.Proof.Gen.ReferenceIdeal.Run
import proofs.«181715_j2963527434318_1_alg».proof.Proof.Gen.ReferenceIdeal.Read
import proofs.«181715_j2963527434318_1_alg».proof.Proof.Gen.Pre_finite_inputs
import proofs.«181715_j2963527434318_1_alg».proof.Proof.KernelRun
import proofs.«181715_j2963527434318_1_alg».proof.Proof.KernelFold
import proofs.«181715_j2963527434318_1_alg».proof.Proof.RefValue
import Idealize.ShloMosaic.Adequacy
import Idealize.ShloMosaic.Init

noncomputable section

namespace Cert.Proof

open Idealize.ShloMosaic Idealize.SL.Sem Cert.Sage

/-- The word-level kernel program runs and keeps its arguments. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference is host operations only: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- At the ideal values both programs end with the output vector at `Out` and the second hidden layer at `H2` of
    the ten arguments: the kernel program by its run read through its two regions, the reference by its run read one
    operation at a time; the arguments agree, so the results do. -/
theorem algebraic : Cert.algebraic_KernelIdeal_ReferenceIdeal := by
  intro m ρ m' ρ' _ hagree
  refine ⟨fun c => Out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    fun c => H2 (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ?_) (Cert.KernelIdeal.RunValue.run_named (F := Ideal) m ρ)
    obtain ⟨h0, h1, hrest⟩ := h c
    exact ⟨h0.trans (Cert.KernelIdeal.FoldValue.W5_v45 m ρ c), h1.trans (Cert.KernelIdeal.FoldValue.W5_v44_0 m ρ c), hrest⟩
  · refine (θ_run Cert.ReferenceIdeal.defs _ _).mono (fun r h c => ?_) (Cert.ReferenceIdeal.Value.run (F := Ideal) m' ρ')
    obtain ⟨h0, h1, hrest⟩ := h c
    obtain ⟨a0, a1, a2, a3, a4, a5, a6, a7, a8, a9⟩ := hagree c
    refine ⟨h0.trans ?_, h1.trans ?_, hrest⟩
    · rw [Cert.ReferenceIdeal.Read.val_main_v58_eq, Cert.ReferenceIdeal.RefValue.ref_out, a0, a1, a2, a3, a4, a5, a6, a7, a8, a9]
    · rw [Cert.ReferenceIdeal.Read.val_main_v52_eq, Cert.ReferenceIdeal.RefValue.ref_h2, a0, a1, a2, a3, a4, a5, a6, a7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
